-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel

variable [Facts]

def fn {F : FTy → Type} [FloatOps F] (main_arg0 : FVec F S32768x1000 .f32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  main_v3
-- ==== Kernel.lean ====
abbrev S32768x1000 : Shape := ⟨2, ![32768, 1000]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S32768x1000, .f32⟩
  | .hbm, ⟨1, _⟩ => ⟨S32768x1000, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .f32⟩
  | .local _ .vmem, ⟨3, _⟩ => ⟨S1024x1000, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S32768x1000.size a
  hwx0_0 : ∀ i : grid0.Coords, EltTy.bits .f32 = 32 ∨ (Rect.block (s := S32768x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S32768x1000.size a
  hwx0_1 : ∀ i : grid0.Coords, EltTy.bits .f32 = 32 ∨ (Rect.block (s := S32768x1000) S1024x1000.size (cc0_transform_1 i) (hinb0_1 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x1000 : Shape := ⟨2, ![32768, 1000]⟩
abbrev S_ : Shape := ⟨0, ![]⟩
abbrev S32768 : Shape := ⟨1, ![32768]⟩
abbrev S32768x1 : Shape := ⟨2, ![32768, 1]⟩

abbrev nBuf : Space → Nat
  | .hbm => 61
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S32768x1000, .f32⟩
  | .hbm, ⟨2, _⟩ => ⟨S_, .f32⟩
  | .hbm, ⟨3, _⟩ => ⟨S32768, .f32⟩
  | .hbm, ⟨4, _⟩ => ⟨S32768x1, .f32⟩
  | .hbm, ⟨5, _⟩ => ⟨S_, .f32⟩
  | .hbm, ⟨6, _⟩ => ⟨S32768x1, .f32⟩
  | .hbm, ⟨7, _⟩ => ⟨S32768x1, .f32⟩
  | .hbm, ⟨8, _⟩ => ⟨S_, .i32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1000, .f32⟩
  | .hbm, ⟨16, _⟩ => ⟨S32768x1000, .f32⟩
  | .hbm, ⟨17, _⟩ => ⟨S32768x1000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1000, .f32⟩
  | .hbm, ⟨34, _⟩ => ⟨S32768x1000, .f32⟩
  | .hbm, ⟨35, _⟩ => ⟨S32768x1000, .f32⟩
  | .hbm, ⟨36, _⟩ => ⟨S32768x1000, .f32⟩
  | .hbm, ⟨37, _⟩ => ⟨S32768x1000, .f32⟩
  | .hbm, ⟨38, _⟩ => ⟨S32768x1000, .f32⟩
  | .hbm, ⟨39, _⟩ => ⟨S_, .f32⟩
  | .hbm, ⟨40, _⟩ => ⟨S32768x1000, .f32⟩
  | .hbm, ⟨41, _⟩ => ⟨S32768x1000, .f32⟩
  | .hbm, ⟨42, _⟩ => ⟨S_, .f32⟩
  | .hbm, ⟨43, _⟩ => ⟨S32768x1000, .f32⟩
  | .hbm, ⟨44, _⟩ => ⟨S32768x1000, .f32⟩
  | .hbm, ⟨45, _⟩ => ⟨S_, .f32⟩
  | .hbm, ⟨46, _⟩ => ⟨S32768x1000, .f32⟩
  | .hbm, ⟨47, _⟩ => ⟨S32768x1000, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1000, .f32⟩
  | .hbm, ⟨53, _⟩ => ⟨S32768x1000, .f32⟩
  | .hbm, ⟨54, _⟩ => ⟨S_, .f32⟩
  | .hbm, ⟨55, _⟩ => ⟨S32768x1000, .f32⟩
  | .hbm, ⟨56, _⟩ => ⟨S32768x1000, .f32⟩
  | .hbm, ⟨57, _⟩ => ⟨S32768x1000, .f32⟩
  | .hbm, ⟨58, _⟩ => ⟨S32768x1000, .f32⟩
  | .hbm, ⟨59, _⟩ => ⟨S32768x1000, .f32⟩
  | .hbm, ⟨60, _⟩ => ⟨S32768x1000, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_v12 : Ref sig .tc := ⟨.hbm, 25, rfl⟩
abbrev main_call0_call0_cst_3 : Ref sig .tc := ⟨.hbm, 26, rfl⟩
abbrev main_call0_call0_v13 : Ref sig .tc := ⟨.hbm, 27, rfl⟩
abbrev main_call0_call0_cst_4 : Ref sig .tc := ⟨.hbm, 28, rfl⟩
abbrev main_call0_call0_call0_v0 : Ref sig .tc := ⟨.hbm, 29, rfl⟩
abbrev main_call0_call0_call0_v1 : Ref sig .tc := ⟨.hbm, 30, rfl⟩
abbrev main_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_cst_4 : Ref sig .tc := ⟨.hbm, 48, rfl⟩
abbrev main_v18 : Ref sig .tc := ⟨.hbm, 49, rfl⟩
abbrev main_v19 : Ref sig .tc := ⟨.hbm, 50, rfl⟩
abbrev main_cst_5 : Ref sig .tc := ⟨.hbm, 51, rfl⟩
abbrev main_v20 : Ref sig .tc := ⟨.hbm, 52, rfl⟩
abbrev main_v21 : Ref sig .tc := ⟨.hbm, 53, rfl⟩
abbrev main_cst_6 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩

abbrev nD : Nat := 1
abbrev τ : Topo := Topo.v7x

variable {F : FTy → Type} [FloatOps F]

class Facts₀ : Prop where
  reducesTo_S32768x1000_S32768_d1 : S32768x1000.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1000_0_1 : S32768x1.BroadcastsInDim S32768x1000 (![0, 1] : Fin 2 → Fin S32768x1000.rank)
  bcast_S_S32768x1000 : S_.BroadcastsInDim S32768x1000 (![] : Fin 0 → Fin S32768x1000.rank)

variable [Facts₀]

class Facts : Prop extends Facts₀ where

variable [Facts]
-- ==== Proof.Spec.lean ====
/-
  The row function both programs compute, and the scalar facts the reference's spelling of it needs.

  Each row `x` of the `[32768, 1000]` input is treated on its own. With `|a| = max a (-a)`,
      mean   = (Σ_k |x k|) / 1000
      dev k  = |x k| - mean
      spread = sqrt ((Σ_k dev k · dev k) / 999)            (the unbiased standard deviation of the magnitudes)
      out j  = x j + (logistic (dev j / spread) / 999) · ((Σ_k x k) - 1000 · x j)
  all on the extended reals: quotients are `Ideal.div`, `logistic z = 1 / (1 + e^(-z))`, and the two literals stay the
  f32 words `0x447A0000` (1000.0) and `0x4479C000` (999.0) wherever both programs spell them as words.

  The reference spells three things differently, and the facts for them are here: its divisor 999 is computed as
  `1000.0 - float(1)` (`n_minus_one`); it guards the variance by `where(999 > 0, ·, nan)`, whose condition is the bit 1
  (`guard_bit`); and its sigmoid is the expansion `1 · (1 / (1 + e^(-z)))` (`sigmoid_expanded`).
-/
import Idealize.ShloMosaic.Lib.IdealHost

noncomputable section

namespace Cert.Smooth

open Idealize.ShloMosaic Idealize.ShloMosaic.ValueIdx

/-- The magnitude of entry `k` of a row, less the mean magnitude of the row. -/
def dev (x : Fin 1000 → EReal) (k : Fin 1000) : EReal :=
  max (x k) (-(x k)) - Ideal.div (∑ l : Fin 1000, max (x l) (-(x l))) (Ideal.ofBits .f32 0x447A0000#32)

/-- The unbiased standard deviation of a row's magnitudes. -/
def spread (x : Fin 1000 → EReal) : EReal :=
  Ideal.sqrt (Ideal.div (∑ k : Fin 1000, dev x k * dev x k) (Ideal.ofBits .f32 0x4479C000#32))

/-- Entry `j` of the smoothed row. -/
def rowOut (x : Fin 1000 → EReal) (j : Fin 1000) : EReal :=
  x j + Ideal.div (Ideal.logistic (Ideal.div (dev x j) (spread x))) (Ideal.ofBits .f32 0x4479C000#32)
          * ((∑ k : Fin 1000, x k) - Ideal.ofBits .f32 0x447A0000#32 * x j)

/-- The whole result array: entry `(r, j)` is `rowOut` of row `r` at `j`. -/
def G (X : (⟨2, ![32768, 1000]⟩ : Shape).Idx → EReal) : (⟨2, ![32768, 1000]⟩ : Shape).Idx → EReal :=
  fun i => rowOut (fun k => X (ix2 (i 0 : Fin 32768) k)) (i 1 : Fin 1000)

theorem G_apply (X : (⟨2, ![32768, 1000]⟩ : Shape).Idx → EReal) (r : Fin 32768) (j : Fin 1000) :
    G X (ix2 r j) = rowOut (fun k => X (ix2 r k)) j := rfl

/-! ## The literals -/

/-- The word `0x447A0000` denotes the real 1000. -/
theorem ofBits_1000 : Ideal.ofBits .f32 0x447A0000#32 = ((1000 : ℝ) : EReal) := by
  simp [Ideal.ofBits, Ideal.ieee, -EReal.coe_mul]; norm_num

/-- The word `0x4479C000` denotes the real 999. -/
theorem ofBits_999 : Ideal.ofBits .f32 0x4479C000#32 = ((999 : ℝ) : EReal) := by
  simp [Ideal.ofBits, Ideal.ieee, -EReal.coe_mul]; norm_num

/-- The reference's divisor: 1000.0 less the integer 1 converted to a float is the word for 999.0. -/
theorem n_minus_one :
    Ideal.ofBits .f32 0x447A0000#32 - (((1#32 : BitVec 32).toInt : ℝ) : EReal) = Ideal.ofBits .f32 0x4479C000#32 := by
  rw [ofBits_1000, ofBits_999, ← EReal.coe_sub]
  norm_num

/-- The reference's guard `999 > 0` is the bit 1. -/
theorem guard_bit : Ideal.cmp .ogt (Ideal.ofBits .f32 0x4479C000#32) (Ideal.ofBits .f32 0x00000000#32) = 1#1 := by
  rw [ofBits_999, Ideal.ofBits_zero_f32]
  have h : (0 : EReal) < ((999 : ℝ) : EReal) := by exact_mod_cast (by norm_num : (0 : ℝ) < 999)
  simp [Ideal.cmp, h]

/-- jax's expansion of the sigmoid, with the unit scale in front, is the logistic function on every extended real. -/
theorem sigmoid_expanded (z : EReal) :
    Ideal.ofBits .f32 0x3F800000#32 * Ideal.div (Ideal.ofBits .f32 0x3F800000#32) (Ideal.ofBits .f32 0x3F800000#32 + Ideal.exp (-z))
      = Ideal.logistic z := by
  rw [Ideal.ofBits_one_f32, one_mul, Ideal.logistic]

end Cert.Smooth

end
-- ==== Proof.LibRowSum.lean ====
/-
  Row sums read at a row.

  A sum along the columns of an `[a, b]` array, read at row `p`, is the sum over `k : Fin b` of the entries `(p, k)`:
  for a kernel's lane reduction `vector.multi_reduction <add>` over axis 1 started from the zero word (`laneSum_row`),
  and for the host's `reduce` with `add` over axis 1, which puts its initial value in front (`hostSum_row`).
  Both at the ideal instance, where a float sum is the exact sum of extended reals in any order.
  `lift_row` is the index fact under both: over row `p`, the index with column `k` put back in is `(p, k)`.
-/
import Idealize.ShloMosaic.Lib.IdealHost

namespace Cert.LibRowSum

open Idealize.ShloMosaic Idealize.ShloMosaic.ValueIdx

/-- Over row `p` of an `[a, b]` array, the index whose dropped (column) coordinate is `k` is `(p, k)`. -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A kernel's f32 lane sum over the columns, started from the zero word, read at row `p`: the sum of the row. -/
theorem laneSum_row {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- The host's float sum over the columns from the initial array `init`, read at row `p`: the initial value plus
    the sum of the row. -/
theorem hostSum_row {a b : ℕ} {u : Shape} {φ : FTy} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  refine (hostReduceAdd_apply x init h' hu (ix1 p)).trans ((Ideal.hostReduceAdd_single h' h x _ (ix1 p)).trans ?_)
  exact congrArg (init (Shape.Idx.first hu) + ·) (Finset.sum_congr rfl fun k _ => congrArg x (lift_row h p k))

end Cert.LibRowSum
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KernelRow.lean ====
/-
  One block of the kernel is the row function, row by row.

  At a grid point the body loads a `[1024, 1000]` block `P0` and stores one value; what it stores, index by index, is
  the function `E1` of the value leg (the three lane sums kept whole). Here that function is read at `(p, j)`:
  each lane sum at row `p` is the sum of that row of its operand, the centred magnitudes under the second sum are read
  through the kernel's keepdims column (a cast `[1024] → [1024, 1]` and a broadcast `[1024, 1] → [1024, 1000]`), and
  what is left is `Smooth.rowOut` of row `p` of the block at `j` by unfolding.
-/
import proofs.«113172_j17686675324981_2_alg».proof.Proof.KernelValue
import proofs.«113172_j17686675324981_2_alg».proof.Proof.Spec
import proofs.«113172_j17686675324981_2_alg».proof.Proof.LibRowSum
import proofs.«113172_j17686675324981_2_alg».proof.Proof.LibColBroadcast
import proofs.«113172_j17686675324981_2_alg».proof.Proof.LibColumnCast

noncomputable section

namespace Cert.KernelIdeal.Row

open Cert.KernelIdeal Cert.KernelIdeal.Gen Idealize.ShloMosaic Idealize.ShloMosaic.ValueIdx

/-- The block's magnitudes less their row means, read at `(p, k)`: `Smooth.dev` of row `p` at `k`. The mean reaches
    the entry through the column: the lane sum at `p`, cast to `(p, 0)`, divided there, broadcast to `(p, k)`. -/
theorem centred_block (P0 : Vec Ideal S1024x1000 .f32) (hr : S1024x1000.Reduces [1] S1024) (hφ : FKind.Formats .f32)
    (ha : (0x00000000#32 : BitVec 32) = 0x00000000#32) (hc : S1024.ShapeCasts S1024x1) (hb : S1024x1.Broadcasts S1024x1000)
    (p : Fin 1024) (k : Fin 1000) :
    (subf (absf P0) (broadcastTo S1024x1000 (divf (shapeCast S1024x1 (multiReduction .add [1] S1024 (absf P0) 0x00000000#32 hr hφ ha) hc)
        (broadcast S1024x1 (FloatOps.ofBits (F := Ideal) .f32 0x447A0000#32))) hb)) (ix2 p k)
      = Smooth.dev (fun l => P0 (ix2 p l)) k := by
  simp only [subf]
  rw [Cert.LibColBroadcast.broadcastTo_a1_ab_apply]
  simp only [divf]
  rw [Cert.LibColumnCast.shapeCast_a_a1_apply, Cert.LibRowSum.laneSum_row]
  rfl

/-- So the block's sum, along row `p`, of the squared centred magnitudes is the row's sum of squared `Smooth.dev`. -/
theorem sq_sum (P0 : Vec Ideal S1024x1000 .f32) (hr : S1024x1000.Reduces [1] S1024) (hφ : FKind.Formats .f32)
    (ha : (0x00000000#32 : BitVec 32) = 0x00000000#32) (hc : S1024.ShapeCasts S1024x1) (hb : S1024x1.Broadcasts S1024x1000)
    (p : Fin 1024) :
    (∑ k : Fin 1000, (mulf
        (subf (absf P0) (broadcastTo S1024x1000 (divf (shapeCast S1024x1 (multiReduction .add [1] S1024 (absf P0) 0x00000000#32 hr hφ ha) hc)
          (broadcast S1024x1 (FloatOps.ofBits (F := Ideal) .f32 0x447A0000#32))) hb))
        (subf (absf P0) (broadcastTo S1024x1000 (divf (shapeCast S1024x1 (multiReduction .add [1] S1024 (absf P0) 0x00000000#32 hr hφ ha) hc)
          (broadcast S1024x1 (FloatOps.ofBits (F := Ideal) .f32 0x447A0000#32))) hb))) (ix2 p k))
      = ∑ k : Fin 1000, Smooth.dev (fun l => P0 (ix2 p l)) k * Smooth.dev (fun l => P0 (ix2 p l)) k := by
  refine Finset.sum_congr rfl fun k _ => ?_
  simp only [mulf]
  rw [centred_block]
  rfl

/-- The value the body stores, read at `(p, j)` of the block, is the row function of row `p` of the loaded block. -/
theorem block_row (P0 : Vec Ideal S1024x1000 .f32) (p : Fin 1024) (j : Fin 1000) :
    ValueP.E1 (F := Ideal) P0 (ix2 p j) = Smooth.rowOut (fun k => P0 (ix2 p k)) j := by
  have i0 : ValueP.ix1_0 (ix2 p j) = ix2 p j := by funext a; match a with | ⟨0, _⟩ => rfl | ⟨1, _⟩ => rfl
  have i1 : ValueP.ix1_1 (ix2 p j) = ix2 p j := by funext a; match a with | ⟨0, _⟩ => rfl | ⟨1, _⟩ => rfl
  have i5 : ValueP.ix1_5 (ix2 p j) = ix2 p j := by funext a; match a with | ⟨0, _⟩ => rfl | ⟨1, _⟩ => rfl
  have i2 : ValueP.ix1_2 (ix2 p j) = ix1 p := by funext a; match a with | ⟨0, _⟩ => rfl
  have i3 : ValueP.ix1_3 (ix2 p j) = ix1 p := by funext a; match a with | ⟨0, _⟩ => rfl
  have i4 : ValueP.ix1_4 (ix2 p j) = ix1 p := by funext a; match a with | ⟨0, _⟩ => rfl
  dsimp only [ValueP.E1]
  rw [i0, i1, i2, i3, i4, i5, Cert.LibRowSum.laneSum_row, Cert.LibRowSum.laneSum_row, Cert.LibRowSum.laneSum_row, sq_sum]
  rfl

end Cert.KernelIdeal.Row

end
-- ==== Proof.KernelArray.lean ====
/-
  From the kernel's blocks to its result array.

  The grid has 32 points; at point `t` both windows sit at block index `(t, 0)`, so the input block is rows
  `1024·t … 1024·t + 1023` of the argument, whole rows, and the output block is the same rows of the result. Row `p` of
  the block is row `1024·t + p` of the array, and the body turns each row into `Smooth.rowOut` of it, so what point `t`
  writes back is block `t` of `Smooth.G` of the argument. Row `r` lies in the block of point `r / 1024`: the blocks
  cover the array, which therefore ends holding `Smooth.G` of the argument; the argument itself is never written.
-/
import proofs.«113172_j17686675324981_2_alg».proof.Proof.KernelRow

noncomputable section

namespace Cert.KernelIdeal.Whole

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- What the body leaves in the output buffer from a loaded block `x0`, at `(p, q)`: the row function of row `p`. -/
theorem out_block (x0 : Vec Ideal S1024x1000 .f32) (p : Fin 1024) (q : Fin 1000) :
    out0_1 x0 (ix2 p q) = Smooth.rowOut (fun k => x0 (ix2 p k)) q := by
  unfold out0_1
  rw [ValueP.canon1_eq, View.ld_unit_zero (S := S1024x1000) zero_offsets]
  exact Row.block_row x0 p q

/-- Both windows' block index at point `t` is `(t, 0)`: decided over the 32 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem point_lt (t : Fin cfg0.N) : t.val < 32 := by
  have h : t.val < grid0.N := t.isLt
  have hN : grid0.N = 32 := N_0
  omega

/-- Row `p` of the block at point `t` is this row of the array. -/
def rowOf (t : Fin cfg0.N) (p : Fin 1024) : Fin 32768 :=
  ⟨t.val * 1024 + p.val, by have := point_lt t; have := p.isLt; omega⟩

/-- The input block at point `t`, read at `(p, k)`, is the argument at `(1024·t + p, k)`. -/
theorem iblk_at (c : Dev nD) (t : Fin cfg0.N) (p : Fin 1024) (k : Fin 1000) :
    iblk m c 0 t (ix2 p k) = V m c main_arg0 (ix2 (rowOf t p) k) := by
  obtain ⟨e0, e1, -, -⟩ := idx_facts t
  show V m c main_arg0 (((cfg0.win 0).blk t).view.emb (ix2 p k)) = V m c main_arg0 (ix2 (rowOf t p) k)
  have h : ((cfg0.win 0).blk t).view.emb (ix2 p k) = ix2 (rowOf t p) k := by
    funext a; apply Fin.ext
    match a with
    | ⟨0, _⟩ => show win0_0.index t (0 : Fin 2) * 1024 + 1 * p.val = t.val * 1024 + p.val; omega
    | ⟨1, _⟩ => show win0_0.index t (1 : Fin 2) * 1000 + 1 * k.val = k.val; omega
  rw [h]

/-- The output block's entry `(p, q)` at point `t` is the array's entry `(1024·t + p, q)`. -/
theorem oblk_emb (t : Fin cfg0.N) (p : Fin 1024) (q : Fin 1000) :
    ((cfg0.win 1).blk t).view.emb (ix2 p q) = ix2 (rowOf t p) q := by
  obtain ⟨-, -, e2, e3⟩ := idx_facts t
  funext a; apply Fin.ext
  match a with
  | ⟨0, _⟩ => show win0_1.index t (0 : Fin 2) * 1024 + 1 * p.val = t.val * 1024 + p.val; omega
  | ⟨1, _⟩ => show win0_1.index t (1 : Fin 2) * 1000 + 1 * q.val = q.val; omega

/-- WHAT POINT `t` WRITES BACK is block `t` of `Smooth.G` of the argument as the region finds it. -/
theorem flushed_eq (c : Dev nD) (t : Fin cfg0.N) :
    (dats m 0 c).flushed 1 t = ((cfg0.win 1).blk t).view.read (Elt Ideal) (Smooth.G (V m c main_arg0)) := by
  rw [ValueP.flushed1]
  funext y
  obtain ⟨p, q, rfl⟩ : ∃ (p : Fin 1024) (q : Fin 1000), y = ix2 p q :=
    ⟨⟨(y 0).val, (y 0).isLt⟩, ⟨(y 1).val, (y 1).isLt⟩, by funext a; match a with | ⟨0, _⟩ => rfl | ⟨1, _⟩ => rfl⟩
  show out0_1 (iblk m c 0 t) (ix2 p q) = Smooth.G (V m c main_arg0) (((cfg0.win 1).blk t).view.emb (ix2 p q))
  rw [oblk_emb, Smooth.G_apply]
  refine (out_block (iblk m c 0 t) p q).trans ?_
  exact congrArg (fun f => Smooth.rowOut f q) (funext fun k => iblk_at m c t p k)

/-- An index of the array is in point `t`'s block iff each coordinate is in the block's range on its axis. -/
theorem mem_blk (t : Fin cfg0.N) (i : S32768x1000.Idx) :
    i ∈ ((cfg0.win 1).blk t).view.set ↔ ∀ a : Fin 2, win0_1.index t a * S1024x1000.size a ≤ (i a).val ∧ (i a).val < win0_1.index t a * S1024x1000.size a + S1024x1000.size a := by
  show i ∈ ((View.whole main_v0).slice (win0_1.rect t)).set ↔ _
  rw [View.set_slice_whole, Rect.mem_set_unit]
  exact Iff.rfl

/-- Every index of the result array is in some point's block: row `r` in that of point `r / 1024`. -/
theorem cover (i : S32768x1000.Idx) :
    ∃ t : Fin cfg0.N, (cfg0.win 1).flush t = true ∧ i ∈ ((cfg0.win 1).blk t).view.set := by
  have hi0 : (i 0).val < 32768 := (i 0).isLt
  have hi1 : (i 1).val < 1000 := (i 1).isLt
  have hN : grid0.N = 32 := N_0
  have hlt : (i 0).val / 1024 < cfg0.N := by show (i 0).val / 1024 < grid0.N; omega
  obtain ⟨-, -, e2, e3⟩ := idx_facts ⟨(i 0).val / 1024, hlt⟩
  have e2' : win0_1.index ⟨(i 0).val / 1024, hlt⟩ (0 : Fin 2) = (i 0).val / 1024 := e2
  refine ⟨⟨(i 0).val / 1024, hlt⟩, flush0_1 _, ?_⟩
  rw [mem_blk]
  intro a
  match a with
  | ⟨0, _⟩ =>
    show win0_1.index ⟨(i 0).val / 1024, hlt⟩ (0 : Fin 2) * 1024 ≤ (i 0).val
      ∧ (i 0).val < win0_1.index ⟨(i 0).val / 1024, hlt⟩ (0 : Fin 2) * 1024 + 1024
    omega
  | ⟨1, _⟩ =>
    show win0_1.index ⟨(i 0).val / 1024, hlt⟩ (1 : Fin 2) * 1000 ≤ (i 1).val
      ∧ (i 1).val < win0_1.index ⟨(i 0).val / 1024, hlt⟩ (1 : Fin 2) * 1000 + 1000
    omega

/-- THE RESULT ARRAY after the run is `Smooth.G` of the argument. -/
theorem final (c : Dev nD) : (dats m 0 c).arrAt 1 cfg0.N = Smooth.G (m ((c : Thread nD τ).loc main_arg0)) :=
  (dats m 0 c).arrAt_eq_of_cover 1 (Smooth.G (V m c main_arg0)) (fun t _ => flushed_eq m c t) cover

/-- The idealized kernel's run: every weakly fair execution terminates with the result array at `Smooth.G` of the
    argument and the argument unchanged. -/
theorem run : θ_run defs (onTc (τ := τ) (main (F := Ideal))) ⟨m, fun _ => 0, ρ⟩ fun r => ∀ c : Dev nD,
      r.2.mem ((c : Thread nD τ).loc main_v0) = Smooth.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (ValueP.run_blocks m ρ)

end Cert.KernelIdeal.Whole

end
-- ==== Proof.RefRun.lean ====
/-
  The reference's run, read back.

  The reference's @main is a straight line of sixty host operations once the three functions jax outlined are put
  back at their calls: `_std` (a square root of `_var`), `_var` (the mean, the centred squares, their sum over
  `1000 - float(1)`, guarded by `_where`) and `_where` (a select against a NaN splat). `ops` lists them in order, the
  callees' operations written over the buffers their calls name. Every weakly fair execution therefore terminates with
  each buffer at the fold of the operations over the launch contents; the result buffer's fold is `refOut` of the
  argument, the whole-array term spelt here in the reference's own operations, and the argument is never written.
-/
import proofs.«113172_j17686675324981_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

set_option quotPrecheck false

local notation "𝔸" => (⟨S32768x1000, .f32⟩ : BufTy).Contents (Elt F)
local notation "ℂ" => (⟨S32768x1, .f32⟩ : BufTy).Contents (Elt F)
local notation "𝕍" => (⟨S32768, .f32⟩ : BufTy).Contents (Elt F)
local notation "𝕊" => (⟨S_, .f32⟩ : BufTy).Contents (Elt F)

/-! ## The result as one term of the argument -/

/-- The sums of an array's rows, from the zero word, stood up as a column. -/
def rowSums (a : FVec F S32768x1000 .f32) : FVec F S32768x1 .f32 :=
  broadcastInDim S32768x1 ![0] bcast_S32768_S32768x1_0
    (Host.reduceAdd a (constant (F := F) S_ .f32 0x00000000#32) reducesTo_S32768x1000_S32768_d1 h_S_)

/-- A scalar repeated down a column. -/
def colOf (v : FVec F S_ .f32) : FVec F S32768x1 .f32 := broadcastInDim S32768x1 ![] bcast_S_S32768x1 v

/-- A scalar repeated over the whole array. -/
def allOf (v : FVec F S_ .f32) : FVec F S32768x1000 .f32 := broadcastInDim S32768x1000 ![] bcast_S_S32768x1000 v

/-- A column repeated across the thousand columns. -/
def across (v : FVec F S32768x1 .f32) : FVec F S32768x1000 .f32 :=
  broadcastInDim S32768x1000 ![0, 1] bcast_S32768x1_S32768x1000_0_1 v

/-- An array less its rows' means. -/
def centred (a : FVec F S32768x1000 .f32) : FVec F S32768x1000 .f32 :=
  subf a (across (Host.divf (rowSums a) (colOf (constant (F := F) S_ .f32 0x447A0000#32))))

/-- The divisor of the unbiased variance as the reference computes it: 1000.0 less the integer 1 converted. -/
def nMinusOne : FVec F S_ .f32 := subf (F := F) (constant (F := F) S_ .f32 0x447A0000#32) (sitofp (F := F) .f32 (constantI S_ 32 1#32))

/-- The rows' unbiased variances, a column, behind the reference's guard (a NaN splat where the divisor is not positive). -/
def variance (a : FVec F S32768x1000 .f32) : FVec F S32768x1 .f32 :=
  select (broadcastInDim S32768x1 ![] bcast_S_S32768x1 (cmpf .ogt nMinusOne (constant (F := F) S_ .f32 0x00000000#32)))
    (Host.divf (rowSums (mulf (centred a) (centred a))) (colOf nMinusOne))
    (colOf (id (constant (F := F) S_ .f32 0x7FC00000#32)))

/-- The sigmoid gate of the standardized magnitudes, in jax's expansion, with the unit scale in front. -/
def gate (a : FVec F S32768x1000 .f32) : FVec F S32768x1000 .f32 :=
  mulf (allOf (constant (F := F) S_ .f32 0x3F800000#32))
    (Host.divf (allOf (constant (F := F) S_ .f32 0x3F800000#32))
      (addf (allOf (constant (F := F) S_ .f32 0x3F800000#32))
        (Host.exp (Host.negf (Host.divf (centred a) (across (Host.sqrt (variance a))))))))

/-- The reference's result as one term of its argument. -/
def refOut (x : FVec F S32768x1000 .f32) : FVec F S32768x1000 .f32 :=
  addf x (mulf (Host.divf (gate (Host.absf x)) (allOf (constant (F := F) S_ .f32 0x4479C000#32)))
    (subf (across (rowSums x)) (mulf (allOf (constant (F := F) S_ .f32 0x447A0000#32)) x)))

/-! ## @main as a list of operations -/

/-- @main's sixty operations in order: eight of its own, `_var`'s twenty with `_where`'s three after them, `_std`'s
    square root, and @main's remaining twenty-eight. -/
abbrev ops : List (HloOp τ sig (Elt F)) :=
  [ unary main_arg0 main_v0 (Host.absf : 𝔸 → 𝔸),
    nullary main_cst (constant S_ .f32 0x00000000#32),
    binary main_v0 main_cst main_v1 ((fun x v => Host.reduceAdd x v reducesTo_S32768x1000_S32768_d1 h_S_) : 𝔸 → 𝕊 → 𝕍),
    unary main_v1 main_v2 (broadcastInDim S32768x1 ![0] bcast_S32768_S32768x1_0 : 𝕍 → ℂ),
    nullary main_cst_0 (constant S_ .f32 0x447A0000#32),
    unary main_cst_0 main_v3 (broadcastInDim S32768x1 ![] bcast_S_S32768x1 : 𝕊 → ℂ),
    binary main_v2 main_v3 main_v4 (Host.divf : ℂ → ℂ → ℂ),
    nullary main_c (constantI S_ 32 1#32),
    -- _var, called by _std on (|x|, 1)
    TRef.nullary main_call0.call0.cst (constant S_ .f32 0x00000000#32),
    TRef.binary (.of main_v0) main_call0.call0.cst main_call0.call0.v0 (fun x v => Host.reduceAdd x v reducesTo_S32768x1000_S32768_d1 h_S_),
    TRef.unary main_call0.call0.v0 main_call0.call0.v1 (broadcastInDim S32768x1 ![0] bcast_S32768_S32768x1_0),
    TRef.nullary main_call0.call0.cst_0 (constant S_ .f32 0x447A0000#32),
    TRef.unary main_call0.call0.cst_0 main_call0.call0.v2 (broadcastInDim S32768x1 ![] bcast_S_S32768x1),
    TRef.binary main_call0.call0.v1 main_call0.call0.v2 main_call0.call0.v3 Host.divf,
    TRef.unary main_call0.call0.v3 main_call0.call0.v4 (broadcastInDim S32768x1000 ![0, 1] bcast_S32768x1_S32768x1000_0_1),
    TRef.binary (.of main_v0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x447A0000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S32768x1000_S32768_d1 h_S_),
    TRef.unary main_call0.call0.v9 main_call0.call0.v10 (broadcastInDim S32768x1 ![0] bcast_S32768_S32768x1_0),
    TRef.unary main_call0.call0.v8 main_call0.call0.v11 (broadcastInDim S32768x1 ![] bcast_S_S32768x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    -- _where, called by _var on (999 > 0, the variances, NaN)
    TRef.unary main_call0.call0.cst_4 main_call0.call0.call0.v0 id,
    TRef.unary main_call0.call0.call0.v0 main_call0.call0.call0.v1 (broadcastInDim S32768x1 ![] bcast_S_S32768x1),
    TRef.ternary main_call0.call0.v13 main_call0.call0.v12 main_call0.call0.call0.v1 main_call0.call0.call0.v2
      (fun p a b => select (broadcastInDim S32768x1 ![] bcast_S_S32768x1 p) a b),
    -- _std's square root
    TRef.unary main_call0.call0.call0.v2 main_call0.v1 Host.sqrt,
    -- @main, after the call
    unary main_v4 main_v6 (broadcastInDim S32768x1000 ![0, 1] bcast_S32768x1_S32768x1000_0_1 : ℂ → 𝔸),
    binary main_v0 main_v6 main_v7 (subf : 𝔸 → 𝔸 → 𝔸),
    unary main_v5 main_v8 (broadcastInDim S32768x1000 ![0, 1] bcast_S32768x1_S32768x1000_0_1 : ℂ → 𝔸),
    binary main_v7 main_v8 main_v9 (Host.divf : 𝔸 → 𝔸 → 𝔸),
    unary main_v9 main_v10 (Host.negf : 𝔸 → 𝔸),
    unary main_v10 main_v11 (Host.exp : 𝔸 → 𝔸),
    nullary main_cst_1 (constant S_ .f32 0x3F800000#32),
    unary main_cst_1 main_v12 (broadcastInDim S32768x1000 ![] bcast_S_S32768x1000 : 𝕊 → 𝔸),
    binary main_v12 main_v11 main_v13 (addf : 𝔸 → 𝔸 → 𝔸),
    nullary main_cst_2 (constant S_ .f32 0x3F800000#32),
    unary main_cst_2 main_v14 (broadcastInDim S32768x1000 ![] bcast_S_S32768x1000 : 𝕊 → 𝔸),
    binary main_v14 main_v13 main_v15 (Host.divf : 𝔸 → 𝔸 → 𝔸),
    nullary main_cst_3 (constant S_ .f32 0x3F800000#32),
    unary main_cst_3 main_v16 (broadcastInDim S32768x1000 ![] bcast_S_S32768x1000 : 𝕊 → 𝔸),
    binary main_v16 main_v15 main_v17 (mulf : 𝔸 → 𝔸 → 𝔸),
    nullary main_cst_4 (constant S_ .f32 0x00000000#32),
    binary main_arg0 main_cst_4 main_v18 ((fun x v => Host.reduceAdd x v reducesTo_S32768x1000_S32768_d1 h_S_) : 𝔸 → 𝕊 → 𝕍),
    unary main_v18 main_v19 (broadcastInDim S32768x1 ![0] bcast_S32768_S32768x1_0 : 𝕍 → ℂ),
    nullary main_cst_5 (constant S_ .f32 0x4479C000#32),
    unary main_cst_5 main_v20 (broadcastInDim S32768x1000 ![] bcast_S_S32768x1000 : 𝕊 → 𝔸),
    binary main_v17 main_v20 main_v21 (Host.divf : 𝔸 → 𝔸 → 𝔸),
    nullary main_cst_6 (constant S_ .f32 0x447A0000#32),
    unary main_cst_6 main_v22 (broadcastInDim S32768x1000 ![] bcast_S_S32768x1000 : 𝕊 → 𝔸),
    binary main_v22 main_arg0 main_v23 (mulf : 𝔸 → 𝔸 → 𝔸),
    unary main_v19 main_v24 (broadcastInDim S32768x1000 ![0, 1] bcast_S32768x1_S32768x1000_0_1 : ℂ → 𝔸),
    binary main_v24 main_v23 main_v25 (subf : 𝔸 → 𝔸 → 𝔸),
    binary main_v21 main_v25 main_v26 (mulf : 𝔸 → 𝔸 → 𝔸),
    binary main_arg0 main_v26 main_v27 (addf : 𝔸 → 𝔸 → 𝔸) ]

set_option maxRecDepth 2048 in
/-- @main is that straight line: the three functions unfolded at their calls, the sequencing reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub ..,
    unary_bufs_sub .., binary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    nullary_bufs_sub .., unary_bufs_sub .., binary_bufs_sub .., nullary_bufs_sub .., unary_bufs_sub .., binary_bufs_sub ..,
    unary_bufs_sub .., binary_bufs_sub .., binary_bufs_sub .., binary_bufs_sub ..⟩

/-! ## The fold at the result and at the argument -/

/-- The operations' fold at the result buffer is `refOut` of the argument's contents. -/
theorem out_eq (V : Valuation τ sig (Elt F)) :
    after ops V (main_v27 : DevRef τ sig) = refOut (V (main_arg0 : DevRef τ sig)) := by
  after_results_simp
  rfl

/-- No operation writes the argument. -/
theorem arg_eq (V : Valuation τ sig (Elt F)) :
    after ops V (main_arg0 : DevRef τ sig) = V (main_arg0 : DevRef τ sig) := by
  after_results_simp

/-- From any memory with zero counters every weakly fair execution of the reference terminates with its result at
    `refOut` of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v27).trans (out_eq _), (h c main_arg0).trans (arg_eq _)⟩)
    (run_seq scopedRefs_eq scopedSems_eq defs main (fun _ => ops) main_eq (fun _ => ops_sub) m ρ)

end Cert.ReferenceIdeal.RefRun

end
-- ==== Proof.LibColInDim.lean ====
/-
  Two host broadcasts around a unit column, read at an entry: a vector stood up as one column
  (`broadcast_in_dim` with dims [0], [a] to [a, 1]) and one column stretched over b columns (dims [0, 1], [a, 1] to [a, b]).
-/
import Idealize.ShloMosaic.Lib.Pipeline.Value
import Idealize.ShloMosaic.Lib.ValueIdx

namespace Cert.LibColInDim

open Idealize.ShloMosaic Idealize.ShloMosaic.ValueIdx

variable {α : Type}

/-- An [a] array broadcast to [a, 1] along dims [0] reads, at (p, u), the operand at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An [a, 1] array broadcast to [a, b] along dims [0, 1] reads, at (p, q), the operand's one column at row p. -/
theorem bcast_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColInDim
-- ==== Proof.RefRead.lean ====
/-
  The reference's term is the row function, entry by entry.

  `refOut`, the reference's result as one term of its argument, is read at `(r, j)` one stage at a time:
  a row sum at `(r, ·)` is the sum of row `r` (the host's initial zero in front of it vanishes); a scalar laid over a
  column or over the array reads the scalar; a column laid across the columns reads the column at `(r, 0)`; the
  centred array at `(r, k)` is the entry less the row's mean; the guarded variance is the plain one because the guard
  `1000 - 1 > 0` is the bit 1 and the divisor `1000 - 1` is the word for 999; the gate is the logistic function of the
  standardized entry because jax's expansion of the sigmoid is that function. Together: `refOut x = Smooth.G x`.
-/
import proofs.«113172_j17686675324981_2_alg».proof.Proof.RefRun
import proofs.«113172_j17686675324981_2_alg».proof.Proof.Spec
import proofs.«113172_j17686675324981_2_alg».proof.Proof.LibRowSum
import proofs.«113172_j17686675324981_2_alg».proof.Proof.LibColInDim

noncomputable section

namespace Cert.ReferenceIdeal.RefRead

open Cert.ReferenceIdeal Cert.ReferenceIdeal.Gen Cert.ReferenceIdeal.RefRun Idealize.ShloMosaic Idealize.ShloMosaic.ValueIdx

/-- The row sums, read anywhere in row `r` of the column: the sum of row `r`. -/
theorem rowSums_at (a : FVec Ideal S32768x1000 .f32) (r : Fin 32768) (u : Fin 1) :
    rowSums a (ix2 r u) = ∑ k : Fin 1000, a (ix2 r k) := by
  unfold rowSums
  rw [Cert.LibColInDim.bcast_a_a1_apply, Cert.LibRowSum.hostSum_row]
  show Ideal.ofBits .f32 0x00000000#32 + _ = _
  rw [Ideal.ofBits_zero_f32, zero_add]

/-- A scalar repeated down a column reads the scalar. -/
theorem colOf_at (v : FVec Ideal S_ .f32) (r : Fin 32768) (u : Fin 1) : colOf v (ix2 r u) = v ix0 := by
  unfold colOf; exact broadcastInDim_scalar_apply _ v _

/-- A scalar repeated over the array reads the scalar. -/
theorem allOf_at (v : FVec Ideal S_ .f32) (r : Fin 32768) (j : Fin 1000) : allOf v (ix2 r j) = v ix0 := by
  unfold allOf; exact broadcastInDim_scalar_apply _ v _

/-- A column repeated across the columns reads the column in the same row. -/
theorem across_at (v : FVec Ideal S32768x1 .f32) (r : Fin 32768) (j : Fin 1000) : across v (ix2 r j) = v (ix2 r (0 : Fin 1)) := by
  unfold across; exact Cert.LibColInDim.bcast_a1_ab_apply v _ r j

/-- An array less its rows' means, at `(r, k)`: the entry less the mean of row `r`. -/
theorem centred_at (a : FVec Ideal S32768x1000 .f32) (r : Fin 32768) (k : Fin 1000) :
    centred a (ix2 r k) = a (ix2 r k) - Ideal.div (∑ l : Fin 1000, a (ix2 r l)) (Ideal.ofBits .f32 0x447A0000#32) := by
  unfold centred
  simp only [subf]
  rw [across_at]
  simp only [Host.divf]
  rw [rowSums_at, colOf_at]
  rfl

/-- For the magnitudes of `x` that is `Smooth.dev` of row `r`. -/
theorem centred_abs (x : FVec Ideal S32768x1000 .f32) (r : Fin 32768) (k : Fin 1000) :
    centred (Host.absf x) (ix2 r k) = Smooth.dev (fun l => x (ix2 r l)) k := by
  rw [centred_at]; rfl

/-- The reference's divisor `1000.0 - float(1)` is the word for 999.0. -/
theorem nMinusOne_at (i : S_.Idx) : nMinusOne (F := Ideal) i = Ideal.ofBits .f32 0x4479C000#32 := Smooth.n_minus_one

/-- The guarded variance column at row `r`: the guard holds, so it is the sum of the squared centred entries over 999. -/
theorem variance_at (a : FVec Ideal S32768x1000 .f32) (r : Fin 32768) (u : Fin 1) :
    variance a (ix2 r u)
      = Ideal.div (∑ k : Fin 1000, centred a (ix2 r k) * centred a (ix2 r k)) (Ideal.ofBits .f32 0x4479C000#32) := by
  unfold variance
  rw [select_apply, broadcastInDim_scalar_apply]
  have hg : (cmpf .ogt (nMinusOne (F := Ideal)) (constant (F := Ideal) S_ .f32 0x00000000#32)) ix0 = 1#1 := by
    show Ideal.cmp .ogt (nMinusOne (F := Ideal) ix0) (Ideal.ofBits .f32 0x00000000#32) = 1#1
    rw [nMinusOne_at]; exact Smooth.guard_bit
  rw [hg, select_one]
  simp only [Host.divf]
  rw [rowSums_at, colOf_at, nMinusOne_at]
  rfl

/-- The gate at `(r, j)`: the logistic function of the centred entry over the row's standard deviation. -/
theorem gate_at (a : FVec Ideal S32768x1000 .f32) (r : Fin 32768) (j : Fin 1000) :
    gate a (ix2 r j) = Ideal.logistic (Ideal.div (centred a (ix2 r j)) (Ideal.sqrt (variance a (ix2 r (0 : Fin 1))))) := by
  unfold gate
  simp only [mulf, Host.divf, addf, Host.exp, Host.negf, Host.sqrt]
  rw [allOf_at, across_at]
  exact Smooth.sigmoid_expanded _

/-- The reference's result at `(r, j)` is the row function of row `r` at `j`. -/
theorem refOut_apply (x : FVec Ideal S32768x1000 .f32) (r : Fin 32768) (j : Fin 1000) :
    refOut x (ix2 r j) = Smooth.rowOut (fun k => x (ix2 r k)) j := by
  unfold refOut
  simp only [addf, mulf, subf, Host.divf]
  rw [gate_at, variance_at, across_at, rowSums_at, allOf_at, allOf_at]
  simp only [centred_abs]
  rfl

/-- So the reference's result array is `Smooth.G` of its argument. -/
theorem refOut_eq (x : FVec Ideal S32768x1000 .f32) : refOut x = Smooth.G x := by
  funext i
  obtain ⟨r, j, rfl⟩ : ∃ (r : Fin 32768) (j : Fin 1000), i = ix2 r j := ⟨i 0, i 1, eq_ix2 i⟩
  exact refOut_apply x r j

end Cert.ReferenceIdeal.RefRead

end
-- ==== Proof.lean ====
/-
  Row-wise smoothing of a `[32768, 1000]` f32 matrix: the kernel against its jnp reference, on the extended reals.

  Both programs treat each row `x` on its own. With `|a| = max a (-a)`,
      mean = (Σ_k |x k|) / 1000,   dev k = |x k| - mean,   spread = sqrt ((Σ_k dev k · dev k) / 999),
      out j = x j + (logistic (dev j / spread) / 999) · ((Σ_k x k) - 1000 · x j)
  (`Cert.Smooth.rowOut`, Proof/Spec.lean; the result array is `Cert.Smooth.G`, `rowOut` of each row).

  The kernel runs a grid of 32 points over blocks of 1024 whole rows; a block's three lane sums are row sums, so each
  point writes back its block of `G` of the argument, and the blocks cover the array (Proof/KernelRow.lean,
  Proof/KernelArray.lean, over the value leg in Proof/KernelValue.lean). The reference is a straight line of sixty host
  operations once `_std`, `_var` and `_where` are put back at their calls (Proof/RefRun.lean); read entry by entry its
  result is the same `G` (Proof/RefRead.lean): its divisor `1000.0 - float(1)` is the word for 999.0, its guard
  `999 > 0` holds, its sigmoid `1 · (1 / (1 + e^(-z)))` is the logistic function, and a host sum from an initial zero is
  the plain sum. No law used needs the entries to be finite: both sides apply the same operations to the same sums, so
  the precondition is never opened. The ideal pass rewrote nothing, so `preserves` is `True`.
-/
import proofs.«113172_j17686675324981_2_alg».proof.Defs
import proofs.«113172_j17686675324981_2_alg».proof.Proof.Gen.Kernel
import proofs.«113172_j17686675324981_2_alg».proof.Proof.Gen.Kernel.Skeleton
import proofs.«113172_j17686675324981_2_alg».proof.Proof.Gen.Kernel.Launch
import proofs.«113172_j17686675324981_2_alg».proof.Proof.Gen.Kernel.Points
import proofs.«113172_j17686675324981_2_alg».proof.Proof.Gen.Kernel.Frame
import proofs.«113172_j17686675324981_2_alg».proof.Proof.Gen.KernelIdeal
import proofs.«113172_j17686675324981_2_alg».proof.Proof.Gen.KernelIdeal.Skeleton
import proofs.«113172_j17686675324981_2_alg».proof.Proof.Gen.KernelIdeal.Launch
import proofs.«113172_j17686675324981_2_alg».proof.Proof.Gen.KernelIdeal.Points
import proofs.«113172_j17686675324981_2_alg».proof.Proof.Gen.KernelIdeal.Frame
import proofs.«113172_j17686675324981_2_alg».proof.Proof.Gen.ReferenceIdeal
import proofs.«113172_j17686675324981_2_alg».proof.Proof.Gen.Pre_finite_inputs
import proofs.«113172_j17686675324981_2_alg».proof.Proof.KernelArray
import proofs.«113172_j17686675324981_2_alg».proof.Proof.RefRead
import Idealize.ShloMosaic.Adequacy
import Idealize.ShloMosaic.Init

noncomputable section

namespace Cert.Proof

open Idealize.ShloMosaic Idealize.SL.Sem

/-- The kernel as printed runs and leaves its argument alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument alone: its run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the argument both idealized programs end with the result array at `Smooth.G` of it:
    the kernel block by block, the reference operation by operation. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.refOut_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
